-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x200000x64 : Shape := ⟨3, ![8, 200000, 64]⟩
abbrev S8x200000x1 : Shape := ⟨3, ![8, 200000, 1]⟩
abbrev S68x64 : Shape := ⟨2, ![68, 64]⟩
abbrev S64 : Shape := ⟨1, ![64]⟩
abbrev S64x64 : Shape := ⟨2, ![64, 64]⟩
abbrev S64x5 : Shape := ⟨2, ![64, 5]⟩
abbrev S5 : Shape := ⟨1, ![5]⟩
abbrev S_ : Shape := ⟨0, ![]⟩

class Facts : Prop where
  bcast_S_S8x200000x64 : S_.BroadcastsInDim S8x200000x64 (![] : Fin 0 → Fin S8x200000x64.rank)
  reducesTo_S8x200000x64_S_d0_1_2 : S8x200000x64.ReducesTo [0, 1, 2] S_
  h_S_ : 0 < S_.numel
  bcast_S_S8x200000x1 : S_.BroadcastsInDim S8x200000x1 (![] : Fin 0 → Fin S8x200000x1.rank)
  reducesTo_S8x200000x1_S_d0_1_2 : S8x200000x1.ReducesTo [0, 1, 2] S_
  bcast_S_S68x64 : S_.BroadcastsInDim S68x64 (![] : Fin 0 → Fin S68x64.rank)
  reducesTo_S68x64_S_d0_1 : S68x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x5 : S_.BroadcastsInDim S64x5 (![] : Fin 0 → Fin S64x5.rank)
  reducesTo_S64x5_S_d0_1 : S64x5.ReducesTo [0, 1] S_
  bcast_S_S5 : S_.BroadcastsInDim S5 (![] : Fin 0 → Fin S5.rank)
  reducesTo_S5_S_d0 : S5.ReducesTo [0] S_

variable [Facts]

def fn_part2 {F : FTy → Type} [FloatOps F] (main_arg7 : FVec F S64 .f32) (main_arg8 : FVec F S64x5 .f32) (main_arg9 : FVec F S5 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x5 .f32 := Host.absf main_arg8
  let main_cst_14 : FVec F S_ .f32 := constant S_ .f32 0x7F800000#32
  let main_v40 : FVec F S64x5 .f32 := broadcastInDim S64x5 ![] bcast_S_S64x5 main_cst_14
  let main_v41 : IVec S64x5 1 := cmpf .olt main_v39 main_v40
  let main_c_15 : IVec S_ 1 := constantI S_ 1 1#1
  let main_v42 : IVec S_ 1 := (fun x v => Host.reduce IntOp.andi x v reducesTo_S64x5_S_d0_1 h_S_) main_v41 main_c_15
  let main_v43 : IVec S_ 1 := andi main_v38 main_v42
  let main_v44 : FVec F S5 .f32 := Host.absf main_arg9
  let main_cst_16 : FVec F S_ .f32 := constant S_ .f32 0x7F800000#32
  let main_v45 : FVec F S5 .f32 := broadcastInDim S5 ![] bcast_S_S5 main_cst_16
  let main_v46 : IVec S5 1 := cmpf .olt main_v44 main_v45
  let main_c_17 : IVec S_ 1 := constantI S_ 1 1#1
  let main_v47 : IVec S_ 1 := (fun x v => Host.reduce IntOp.andi x v reducesTo_S5_S_d0 h_S_) main_v46 main_c_17
  let main_v48 : IVec S_ 1 := andi main_v43 main_v47
  main_v48

def fn_part1 {F : FTy → Type} [FloatOps F] (main_arg4 : FVec F S68x64 .f32) (main_arg5 : FVec F S64 .f32) (main_arg6 : FVec F S64x64 .f32) (main_arg7 : FVec F S64 .f32) (main_arg8 : FVec F S64x5 .f32) (main_arg9 : FVec F S5 .f32) (main_v13 : IVec S_ 1) (main_v16 : IVec S8x200000x1 1) : IVec S_ 1 :=
  let main_c_5 : IVec S_ 1 := constantI S_ 1 1#1
  let main_v17 : IVec S_ 1 := (fun x v => Host.reduce IntOp.andi x v reducesTo_S8x200000x1_S_d0_1_2 h_S_) main_v16 main_c_5
  let main_v18 : IVec S_ 1 := andi main_v13 main_v17
  let main_v19 : FVec F S68x64 .f32 := Host.absf main_arg4
  let main_cst_6 : FVec F S_ .f32 := constant S_ .f32 0x7F800000#32
  let main_v20 : FVec F S68x64 .f32 := broadcastInDim S68x64 ![] bcast_S_S68x64 main_cst_6
  let main_v21 : IVec S68x64 1 := cmpf .olt main_v19 main_v20
  let main_c_7 : IVec S_ 1 := constantI S_ 1 1#1
  let main_v22 : IVec S_ 1 := (fun x v => Host.reduce IntOp.andi x v reducesTo_S68x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_v33

def fn {F : FTy → Type} [FloatOps F] (main_arg0 : FVec F S8x200000x64 .f32) (main_arg1 : FVec F S8x200000x1 .f32) (main_arg2 : FVec F S8x200000x1 .f32) (main_arg3 : FVec F S8x200000x1 .f32) (main_arg4 : FVec F S68x64 .f32) (main_arg5 : FVec F S64 .f32) (main_arg6 : FVec F S64x64 .f32) (main_arg7 : FVec F S64 .f32) (main_arg8 : FVec F S64x5 .f32) (main_arg9 : FVec F S5 .f32) : IVec S_ 1 :=
  let main_v0 : FVec F S8x200000x64 .f32 := Host.absf main_arg0
  let main_cst : FVec F S_ .f32 := constant S_ .f32 0x7F800000#32
  let main_v1 : FVec F S8x200000x64 .f32 := broadcastInDim S8x200000x64 ![] bcast_S_S8x200000x64 main_cst
  let main_v2 : IVec S8x200000x64 1 := cmpf .olt main_v0 main_v1
  let main_c : IVec S_ 1 := constantI S_ 1 1#1
  let main_v3 : IVec S_ 1 := (fun x v => Host.reduce IntOp.andi x v reducesTo_S8x200000x64_S_d0_1_2 h_S_) main_v2 main_c
  let main_v4 : FVec F S8x200000x1 .f32 := Host.absf main_arg1
  let main_cst_0 : FVec F S_ .f32 := constant S_ .f32 0x7F800000#32
  let main_v5 : FVec F S8x200000x1 .f32 := broadcastInDim S8x200000x1 ![] bcast_S_S8x200000x1 main_cst_0
  let main_v6 : IVec S8x200000x1 1 := cmpf .olt main_v4 main_v5
  let main_c_1 : IVec S_ 1 := constantI S_ 1 1#1
  let main_v7 : IVec S_ 1 := (fun x v => Host.reduce IntOp.andi x v reducesTo_S8x200000x1_S_d0_1_2 h_S_) main_v6 main_c_1
  let main_v8 : IVec S_ 1 := andi main_v3 main_v7
  let main_v9 : FVec F S8x200000x1 .f32 := Host.absf main_arg2
  let main_cst_2 : FVec F S_ .f32 := constant S_ .f32 0x7F800000#32
  let main_v10 : FVec F S8x200000x1 .f32 := broadcastInDim S8x200000x1 ![] bcast_S_S8x200000x1 main_cst_2
  let main_v11 : IVec S8x200000x1 1 := cmpf .olt main_v9 main_v10
  let main_c_3 : IVec S_ 1 := constantI S_ 1 1#1
  let main_v12 : IVec S_ 1 := (fun x v => Host.reduce IntOp.andi x v reducesTo_S8x200000x1_S_d0_1_2 h_S_) main_v11 main_c_3
  let main_v13 : IVec S_ 1 := andi main_v8 main_v12
  let main_v14 : FVec F S8x200000x1 .f32 := Host.absf main_arg3
  let main_cst_4 : FVec F S_ .f32 := constant S_ .f32 0x7F800000#32
  let main_v15 : FVec F S8x200000x1 .f32 := broadcastInDim S8x200000x1 ![] bcast_S_S8x200000x1 main_cst_4
  let main_v16 : IVec S8x200000x1 1 := cmpf .olt main_v14 main_v15
  fn_part1 (F := F) main_arg4 main_arg5 main_arg6 main_arg7 main_arg8 main_arg9 main_v13 main_v16
-- ==== Kernel.lean ====
abbrev S8x200000x64 : Shape := ⟨3, ![8, 200000, 64]⟩
abbrev S8x200000x1 : Shape := ⟨3, ![8, 200000, 1]⟩
abbrev S68x64 : Shape := ⟨2, ![68, 64]⟩
abbrev S64 : Shape := ⟨1, ![64]⟩
abbrev S64x64 : Shape := ⟨2, ![64, 64]⟩
abbrev S64x5 : Shape := ⟨2, ![64, 5]⟩
abbrev S5 : Shape := ⟨1, ![5]⟩
abbrev S1x64 : Shape := ⟨2, ![1, 64]⟩
abbrev S1x5 : Shape := ⟨2, ![1, 5]⟩
abbrev S8x200000x5 : Shape := ⟨3, ![8, 200000, 5]⟩
abbrev S1x4000x64 : Shape := ⟨3, ![1, 4000, 64]⟩
abbrev S1x4000x1 : Shape := ⟨3, ![1, 4000, 1]⟩
abbrev S1x4000x5 : Shape := ⟨3, ![1, 4000, 5]⟩
abbrev S4000x64 : Shape := ⟨2, ![4000, 64]⟩
abbrev S4000x1 : Shape := ⟨2, ![4000, 1]⟩
abbrev S4000x68 : Shape := ⟨2, ![4000, 68]⟩
abbrev S4000x5 : Shape := ⟨2, ![4000, 5]⟩

abbrev nBuf : Space → Nat
  | .hbm => 14
  | .vmem => 16
  | .smem => 0
  | _ => 0

abbrev bufTy : (tb : Table) → Fin (tcTables nBuf tb) → BufTy
  | .hbm, ⟨0, _⟩ => ⟨S8x200000x64, .f32⟩
  | .hbm, ⟨1, _⟩ => ⟨S8x200000x1, .f32⟩
  | .hbm, ⟨2, _⟩ => ⟨S8x200000x1, .f32⟩
  | .hbm, ⟨3, _⟩ => ⟨S8x200000x1, .f32⟩
  | .hbm, ⟨4, _⟩ => ⟨S68x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x5, .f32⟩
  | .hbm, ⟨9, _⟩ => ⟨S5, .f32⟩
  | .hbm, ⟨10, _⟩ => ⟨S1x64, .f32⟩
  | .hbm, ⟨11, _⟩ => ⟨S1x64, .f32⟩
  | .hbm, ⟨12, _⟩ => ⟨S1x5, .f32⟩
  | .hbm, ⟨13, _⟩ => ⟨S8x200000x5, .f32⟩
  | .local _ .vmem, ⟨0, _⟩ => ⟨S1x4000x64, .f32⟩
  | .local _ .vmem, ⟨1, _⟩ => ⟨S1x4000x64, .f32⟩
  | .local _ .vmem, ⟨2, _⟩ => ⟨S1x4000x1, .f32⟩
  | .local _ .vmem, ⟨3, _⟩ => ⟨S1x4000x1, .f32⟩
  | .local _ .vmem, ⟨4, _⟩ => ⟨S1x4000x1, .f32⟩
  | .local _ .vmem, ⟨5, _⟩ => ⟨S1x4000x1, .f32⟩
  | .local _ .vmem, ⟨6, _⟩ => ⟨S1x4000x1, .f32⟩
  | .local _ .vmem, ⟨7, _⟩ => ⟨S1x4000x1, .f32⟩
  | .local _ .vmem, ⟨8, _⟩ => ⟨S68x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S64x5, .f32⟩
  | .local _ .vmem, ⟨13, _⟩ => ⟨S1x5, .f32⟩
  | .local _ .vmem, ⟨14, _⟩ => ⟨S1x4000x5, .f32⟩
  | .local _ .vmem, ⟨15, _⟩ => ⟨S1x4000x5, .f32⟩
  | _, _ => ⟨S8x200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![8, 50], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S68x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x5 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x5 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x4000x5 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

class Facts₀ : Prop where
  shapeCasts_S64_S1x64 : S64.ShapeCasts S1x64
  shapeCasts_S5_S1x5 : S5.ShapeCasts S1x5
  inb_S1x4000x64_S1x4000x64_0_0_0 : ∀ a, (![0, 0, 0] : Fin 3 → Nat) a + S1x4000x64.size a ≤ S1x4000x64.size a
  h_S1x4000x64 : 0 < S1x4000x64.numel
  shapeCasts_S1x4000x64_S4000x64 : S1x4000x64.ShapeCasts S4000x64
  inb_S1x4000x1_S1x4000x1_0_0_0 : ∀ a, (![0, 0, 0] : Fin 3 → Nat) a + S1x4000x1.size a ≤ S1x4000x1.size a
  h_S1x4000x1 : 0 < S1x4000x1.numel
  shapeCasts_S1x4000x1_S4000x1 : S1x4000x1.ShapeCasts S4000x1
  concatenates_S4000x64_S4000x1_S4000x1_S4000x1_S4000x1_S4000x68_d1 : Shape.Concatenates [S4000x64, S4000x1, S4000x1, S4000x1, S4000x1] S4000x68 1
  inb_S68x64_S68x64_0_0 : ∀ a, (![0, 0] : Fin 2 → Nat) a + S68x64.size a ≤ S68x64.size a
  h_S68x64 : 0 < S68x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x64_S64x64_0_0 : ∀ a, (![0, 0] : Fin 2 → Nat) a + S64x64.size a ≤ S64x64.size a
  h_S64x64 : 0 < S64x64.numel
  inb_S64x5_S64x5_0_0 : ∀ a, (![0, 0] : Fin 2 → Nat) a + S64x5.size a ≤ S64x5.size a
  h_S64x5 : 0 < S64x5.numel
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S4000x5 : S1x5.Broadcasts S4000x5
  inb_S1x4000x5_S1x4000x5_0_0_0 : ∀ a, (![0, 0, 0] : Fin 3 → Nat) a + S1x4000x5.size a ≤ S1x4000x5.size a
  h_S1x4000x5 : 0 < S1x4000x5.numel
  shapeCasts_S1x4000x5_S4000x5 : S1x4000x5.ShapeCasts S4000x5
  shapeCasts_S4000x5_S1x4000x5 : S4000x5.ShapeCasts S1x4000x5
  dot_S4000x68_S68x64_S4000x64_1_0_0_1_n_n_wf : DotDims.WF S4000x68 S68x64 S4000x64 [1] [0] [0] [1] [] []
  dot_S4000x64_S64x64_S4000x64_1_0_0_1_n_n_wf : DotDims.WF S4000x64 S64x64 S4000x64 [1] [0] [0] [1] [] []
  dot_S4000x64_S64x5_S4000x5_1_0_0_1_n_n_wf : DotDims.WF S4000x64 S64x5 S4000x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4000x64.size a ≤ S8x200000x64.size a
  hwx0_0 : ∀ i : grid0.Coords, EltTy.bits .f32 = 32 ∨ (Rect.block (s := S8x200000x64) S1x4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4000x1.size a ≤ S8x200000x1.size a
  hwx0_1 : ∀ i : grid0.Coords, EltTy.bits .f32 = 32 ∨ (Rect.block (s := S8x200000x1) S1x4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4000x1.size a ≤ S8x200000x1.size a
  hwx0_2 : ∀ i : grid0.Coords, EltTy.bits .f32 = 32 ∨ (Rect.block (s := S8x200000x1) S1x4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4000x1.size a ≤ S8x200000x1.size a
  hwx0_3 : ∀ i : grid0.Coords, EltTy.bits .f32 = 32 ∨ (Rect.block (s := S8x200000x1) S1x4000x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S68x64.size a ≤ S68x64.size a
  hwx0_4 : ∀ i : grid0.Coords, EltTy.bits .f32 = 32 ∨ (Rect.block (s := S68x64) S68x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x5.size a ≤ S64x5.size a
  hwx0_8 : ∀ i : grid0.Coords, EltTy.bits .f32 = 32 ∨ (Rect.block (s := S64x5) S64x5.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x5.size a ≤ S1x5.size a
  hwx0_9 : ∀ i : grid0.Coords, EltTy.bits .f32 = 32 ∨ (Rect.block (s := S1x5) S1x5.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x4000x5.size a ≤ S8x200000x5.size a
  hwx0_10 : ∀ i : grid0.Coords, EltTy.bits .f32 = 32 ∨ (Rect.block (s := S8x200000x5) S1x4000x5.size (cc0_transform_10 i) (hinb0_10 i)).WholeWords (EltTy.packing .f32)

variable [Facts₀]

def dot_S4000x68_S68x64_S4000x64_1_0_0_1_n_n : DotDims S4000x68 S68x64 S4000x64 where
  lhsContracting := [1]
  rhsContracting := [0]
  lhsNonContracting := [0]
  rhsNonContracting := [1]
  lhsBatch := []
  rhsBatch := []
  wf := dot_S4000x68_S68x64_S4000x64_1_0_0_1_n_n_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S4000x64_S64x5_S4000x5_1_0_0_1_n_n : DotDims S4000x64 S64x5 S4000x5 where
  lhsContracting := [1]
  rhsContracting := [0]
  lhsNonContracting := [0]
  rhsNonContracting := [1]
  lhsBatch := []
  rhsBatch := []
  wf := dot_S4000x64_S64x5_S4000x5_1_0_0_1_n_n_wf

abbrev win0_0 : Pipeline.Window sig grid0 :=
  Pipeline.Window.ofSpec (Memref.whole main_arg0) S1x4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x4000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S68x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64x5.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v2) S1x5.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v3) S1x4000x5.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S8x200000x64 : Shape := ⟨3, ![8, 200000, 64]⟩
abbrev S8x200000x1 : Shape := ⟨3, ![8, 200000, 1]⟩
abbrev S68x64 : Shape := ⟨2, ![68, 64]⟩
abbrev S64 : Shape := ⟨1, ![64]⟩
abbrev S64x64 : Shape := ⟨2, ![64, 64]⟩
abbrev S64x5 : Shape := ⟨2, ![64, 5]⟩
abbrev S5 : Shape := ⟨1, ![5]⟩
abbrev S8x200000x68 : Shape := ⟨3, ![8, 200000, 68]⟩
abbrev S1x1x64 : Shape := ⟨3, ![1, 1, 64]⟩
abbrev S_ : Shape := ⟨0, ![]⟩
abbrev S8x200000x5 : Shape := ⟨3, ![8, 200000, 5]⟩
abbrev S1x1x5 : Shape := ⟨3, ![1, 1, 5]⟩

abbrev nBuf : Space → Nat
  | .hbm => 30
  | .vmem => 0
  | .smem => 0
  | _ => 0

abbrev bufTy : (tb : Table) → Fin (tcTables nBuf tb) → BufTy
  | .hbm, ⟨0, _⟩ => ⟨S8x200000x64, .f32⟩
  | .hbm, ⟨1, _⟩ => ⟨S8x200000x1, .f32⟩
  | .hbm, ⟨2, _⟩ => ⟨S8x200000x1, .f32⟩
  | .hbm, ⟨3, _⟩ => ⟨S8x200000x1, .f32⟩
  | .hbm, ⟨4, _⟩ => ⟨S68x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x5, .f32⟩
  | .hbm, ⟨9, _⟩ => ⟨S5, .f32⟩
  | .hbm, ⟨10, _⟩ => ⟨S8x200000x1, .f32⟩
  | .hbm, ⟨11, _⟩ => ⟨S8x200000x68, .f32⟩
  | .hbm, ⟨12, _⟩ => ⟨S8x200000x64, .f32⟩
  | .hbm, ⟨13, _⟩ => ⟨S1x1x64, .f32⟩
  | .hbm, ⟨14, _⟩ => ⟨S8x200000x64, .f32⟩
  | .hbm, ⟨15, _⟩ => ⟨S8x200000x64, .f32⟩
  | .hbm, ⟨16, _⟩ => ⟨S_, .f32⟩
  | .hbm, ⟨17, _⟩ => ⟨S8x200000x64, .f32⟩
  | .hbm, ⟨18, _⟩ => ⟨S8x200000x64, .f32⟩
  | .hbm, ⟨19, _⟩ => ⟨S8x200000x64, .f32⟩
  | .hbm, ⟨20, _⟩ => ⟨S1x1x64, .f32⟩
  | .hbm, ⟨21, _⟩ => ⟨S8x200000x64, .f32⟩
  | .hbm, ⟨22, _⟩ => ⟨S8x200000x64, .f32⟩
  | .hbm, ⟨23, _⟩ => ⟨S_, .f32⟩
  | .hbm, ⟨24, _⟩ => ⟨S8x200000x64, .f32⟩
  | .hbm, ⟨25, _⟩ => ⟨S8x200000x64, .f32⟩
  | .hbm, ⟨26, _⟩ => ⟨S8x200000x5, .f32⟩
  | .hbm, ⟨27, _⟩ => ⟨S1x1x5, .f32⟩
  | .hbm, ⟨28, _⟩ => ⟨S8x200000x5, .f32⟩
  | .hbm, ⟨29, _⟩ => ⟨S8x200000x5, .f32⟩
  | _, _ => ⟨S8x200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_call0_cst : Ref sig .tc := ⟨.hbm, 16, rfl⟩
abbrev main_call0_v0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call1_cst : Ref sig .tc := ⟨.hbm, 23, rfl⟩
abbrev main_call1_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩

abbrev nD : Nat := 1
abbrev τ : Topo := Topo.v7x

variable {F : FTy → Type} [FloatOps F]

class Facts₀ : Prop where
  concatenates_S8x200000x64_S8x200000x1_S8x200000x1_S8x200000x1_S8x200000x1_S8x200000x68_d2 : Shape.Concatenates [S8x200000x64, S8x200000x1, S8x200000x1, S8x200000x1, S8x200000x1] S8x200000x68 2
  bcast_S64_S1x1x64_2 : S64.BroadcastsInDim S1x1x64 (![2] : Fin 1 → Fin S1x1x64.rank)
  bcast_S1x1x64_S8x200000x64_0_1_2 : S1x1x64.BroadcastsInDim S8x200000x64 (![0, 1, 2] : Fin 3 → Fin S8x200000x64.rank)
  bcast_S_S8x200000x64 : S_.BroadcastsInDim S8x200000x64 (![] : Fin 0 → Fin S8x200000x64.rank)
  bcast_S5_S1x1x5_2 : S5.BroadcastsInDim S1x1x5 (![2] : Fin 1 → Fin S1x1x5.rank)
  bcast_S1x1x5_S8x200000x5_0_1_2 : S1x1x5.BroadcastsInDim S8x200000x5 (![0, 1, 2] : Fin 3 → Fin S8x200000x5.rank)
  dot_S8x200000x68_S68x64_S8x200000x64_2_0_01_1_n_n_wf : DotDims.WF S8x200000x68 S68x64 S8x200000x64 [2] [0] [0, 1] [1] [] []
  dot_S8x200000x64_S64x64_S8x200000x64_2_0_01_1_n_n_wf : DotDims.WF S8x200000x64 S64x64 S8x200000x64 [2] [0] [0, 1] [1] [] []
  dot_S8x200000x64_S64x5_S8x200000x5_2_0_01_1_n_n_wf : DotDims.WF S8x200000x64 S64x5 S8x200000x5 [2] [0] [0, 1] [1] [] []

variable [Facts₀]

def dot_S8x200000x68_S68x64_S8x200000x64_2_0_01_1_n_n : DotDims S8x200000x68 S68x64 S8x200000x64 where
  lhsContracting := [2]
  rhsContracting := [0]
  lhsNonContracting := [0, 1]
  rhsNonContracting := [1]
  lhsBatch := []
  rhsBatch := []
  wf := dot_S8x200000x68_S68x64_S8x200000x64_2_0_01_1_n_n_wf
def dot_S8x200000x64_S64x64_S8x200000x64_2_0_01_1_n_n : DotDims S8x200000x64 S64x64 S8x200000x64 where
  lhsContracting := [2]
  rhsContracting := [0]
  lhsNonContracting := [0, 1]
  rhsNonContracting := [1]
  lhsBatch := []
  rhsBatch := []
  wf := dot_S8x200000x64_S64x64_S8x200000x64_2_0_01_1_n_n_wf
def dot_S8x200000x64_S64x5_S8x200000x5_2_0_01_1_n_n : DotDims S8x200000x64 S64x5 S8x200000x5 where
  lhsContracting := [2]
  rhsContracting := [0]
  lhsNonContracting := [0, 1]
  rhsNonContracting := [1]
  lhsBatch := []
  rhsBatch := []
  wf := dot_S8x200000x64_S64x5_S8x200000x5_2_0_01_1_n_n_wf

class Facts : Prop extends Facts₀ where

variable [Facts]
-- ==== Proof.EdgeMlp.lean ====
/-
  The message network of one edge, on the extended reals.

  An edge carries 64 hidden features and three scalars: the incoming bias b_in, the outgoing bias b_out and the
  coupling J.  Its message is a three-layer perceptron of the 68 numbers (hidden, b_in, b_out, J, -J): two layers
  of 64 units clipped at zero, then 5 linear outputs.  Nothing below mentions an array layout: a row of features
  is a function on `Fin 68`, a weight a function of (input, output), a bias a function of the output.  The zero
  the clipping compares with is kept as the value of the all-zero word, which both programs spell the same way.
-/
import Idealize.ShloMosaic.PureOps.Ideal.Laws
import Idealize.ShloMosaic.Lib.ValueIdx

noncomputable section

namespace Cert.EdgeMlp

open Idealize.ShloMosaic Idealize.ShloMosaic.ValueIdx

/-- The value of the all-zero f32 word. -/
abbrev z : EReal := Ideal.ofBits .f32 0x00000000#32

/-- Sixty-four entries followed by four single ones, as one function on `Fin 68`. -/
def join5 {α : Type} (h : Fin 64 → α) (a b c d : α) (k : Fin 68) : α :=
  if hk : k.val < 64 then h ⟨k.val, hk⟩
  else if k.val = 64 then a else if k.val = 65 then b else if k.val = 66 then c else d

/-- The 68 inputs of the network: hidden features, b_in, b_out, J, -J. -/
def feat (h : Fin 64 → EReal) (bi bo j : EReal) : Fin 68 → EReal := join5 h bi bo j (-j)

/-- A linear layer: output `n` is the sum over the inputs of input times weight, plus the bias. -/
def dense {K N : Nat} (x : Fin K → EReal) (W : Fin K → Fin N → EReal) (b : Fin N → EReal) (n : Fin N) : EReal :=
  (∑ k : Fin K, x k * W k n) + b n

/-- Clipping at zero. -/
def clip {N : Nat} (v : Fin N → EReal) (n : Fin N) : EReal := max (v n) z

/-- The message of one edge. -/
def mlp (h : Fin 64 → EReal) (bi bo j : EReal)
    (W1 : Fin 68 → Fin 64 → EReal) (b1 : Fin 64 → EReal)
    (W2 : Fin 64 → Fin 64 → EReal) (b2 : Fin 64 → EReal)
    (W3 : Fin 64 → Fin 5 → EReal) (b3 : Fin 5 → EReal) : Fin 5 → EReal :=
  dense (clip (dense (clip (dense (feat h bi bo j) W1 b1)) W2 b2)) W3 b3

/-- Zero less x is the negative of x, on every extended real (no finiteness is needed: 0 - x is 0 + (-x)). -/
theorem z_sub (x : EReal) : z - x = -x := by
  show Ideal.ofBits .f32 0x00000000#32 - x = -x
  rw [Ideal.ofBits_zero_f32, zero_sub]

/-- The messages of all edges: entry (b, e, o) is output o of the network on edge e of batch b.  The arguments are
    the ten arrays in the programs' order: hidden features, J, b_in, b_out, then weight and bias of each layer. -/
def messages (h : (⟨3, ![8, 200000, 64]⟩ : Shape).Idx → EReal)
    (J bin bout : (⟨3, ![8, 200000, 1]⟩ : Shape).Idx → EReal)
    (W1 : (⟨2, ![68, 64]⟩ : Shape).Idx → EReal) (b1 : (⟨1, ![64]⟩ : Shape).Idx → EReal)
    (W2 : (⟨2, ![64, 64]⟩ : Shape).Idx → EReal) (b2 : (⟨1, ![64]⟩ : Shape).Idx → EReal)
    (W3 : (⟨2, ![64, 5]⟩ : Shape).Idx → EReal) (b3 : (⟨1, ![5]⟩ : Shape).Idx → EReal) :
    (⟨3, ![8, 200000, 5]⟩ : Shape).Idx → EReal := fun i =>
  mlp (fun k => h (ix3 (i 0) (i 1) k)) (bin (ix3 (i 0) (i 1) (0 : Fin 1))) (bout (ix3 (i 0) (i 1) (0 : Fin 1)))
    (J (ix3 (i 0) (i 1) (0 : Fin 1)))
    (fun k n => W1 (ix2 k n)) (fun n => b1 (ix1 n)) (fun k n => W2 (ix2 k n)) (fun n => b2 (ix1 n))
    (fun k n => W3 (ix2 k n)) (fun n => b3 (ix1 n)) (i 2)

end Cert.EdgeMlp

end
-- ==== Proof.JoinedRow.lean ====
/-
  Five arrays laid side by side along the last axis, read at one index.

  The network's input row is a concatenation of a 64-wide array and four 1-wide ones.  Read at last coordinate k
  it is the first array at k when k < 64, and otherwise the (k - 63)-th narrow array at 0; the other coordinates
  pass through.  Stated once for arrays of rows ([M, ·], joined along axis 1) and once for batches of rows
  ([A, B, ·], joined along axis 2).
-/
import Idealize.ShloMosaic.Lib.ValueIdx
import Idealize.ShloMosaic.Lib.Pipeline.Value
import proofs.«133533_j12395275616824_2_alg».proof.Proof.EdgeMlp

noncomputable section

namespace Cert.JoinedRow

open Idealize.ShloMosaic Idealize.ShloMosaic.ValueIdx Cert.EdgeMlp

variable {α : Type}

/-- Rows: `[M, 64]` and four `[M, 1]` joined along axis 1, at (p, k). -/
theorem rows_apply {M : Nat}
    (x0 : (⟨2, ![M, 64]⟩ : Shape).Idx → α) (x1 x2 x3 x4 : (⟨2, ![M, 1]⟩ : Shape).Idx → α)
    (h : Shape.Concatenates [(⟨2, ![M, 64]⟩ : Shape), ⟨2, ![M, 1]⟩, ⟨2, ![M, 1]⟩, ⟨2, ![M, 1]⟩, ⟨2, ![M, 1]⟩] ⟨2, ![M, 68]⟩ 1)
    (p : Fin M) (k : Fin 68) :
    concatenate ⟨2, ![M, 68]⟩ 1 [⟨⟨2, ![M, 64]⟩, x0⟩, ⟨⟨2, ![M, 1]⟩, x1⟩, ⟨⟨2, ![M, 1]⟩, x2⟩, ⟨⟨2, ![M, 1]⟩, x3⟩, ⟨⟨2, ![M, 1]⟩, x4⟩] h (ix2 p k)
      = join5 (fun k' => x0 (ix2 p k')) (x1 (ix2 p (0 : Fin 1))) (x2 (ix2 p (0 : Fin 1))) (x3 (ix2 p (0 : Fin 1))) (x4 (ix2 p (0 : Fin 1))) k := by
  have hk := k.isLt
  unfold join5
  have side : ∀ (n : Nat) (y : (⟨2, ![M, n]⟩ : Shape).Idx) (c : Fin n), y = ix2 p c →
      ∀ b : Fin 2, b.cast (rfl : (2 : Nat) = 2) ≠ (1 : Fin 2) → (y b).val = (ix2 p k b).val := by
    intro n y c hy b hb
    subst hy
    match b with
    | ⟨0, _⟩ => rfl
    | ⟨1, _⟩ => exact absurd rfl hb
  by_cases h0 : k.val < 64
  · rw [dif_pos h0]
    exact concatenate_apply_piece 1 [⟨⟨2, ![M, 64]⟩, x0⟩, ⟨⟨2, ![M, 1]⟩, x1⟩, ⟨⟨2, ![M, 1]⟩, x2⟩, ⟨⟨2, ![M, 1]⟩, x3⟩, ⟨⟨2, ![M, 1]⟩, x4⟩] h (ix2 p k) 0 (show 0 < 5 by omega) _ x0 rfl rfl 0 rfl (ix2 p ⟨k.val, h0⟩)
      (side 64 _ _ rfl) (by show 0 + k.val = k.val; omega)
  · rw [dif_neg h0]
    by_cases h1 : k.val = 64
    · rw [if_pos h1]
      exact concatenate_apply_piece 1 [⟨⟨2, ![M, 64]⟩, x0⟩, ⟨⟨2, ![M, 1]⟩, x1⟩, ⟨⟨2, ![M, 1]⟩, x2⟩, ⟨⟨2, ![M, 1]⟩, x3⟩, ⟨⟨2, ![M, 1]⟩, x4⟩] h (ix2 p k) 1 (show 1 < 5 by omega) _ x1 rfl rfl 64 rfl (ix2 p (0 : Fin 1))
        (side 1 _ _ rfl) (by show 64 + 0 = k.val; omega)
    · rw [if_neg h1]
      by_cases h2 : k.val = 65
      · rw [if_pos h2]
        exact concatenate_apply_piece 1 [⟨⟨2, ![M, 64]⟩, x0⟩, ⟨⟨2, ![M, 1]⟩, x1⟩, ⟨⟨2, ![M, 1]⟩, x2⟩, ⟨⟨2, ![M, 1]⟩, x3⟩, ⟨⟨2, ![M, 1]⟩, x4⟩] h (ix2 p k) 2 (show 2 < 5 by omega) _ x2 rfl rfl 65 rfl (ix2 p (0 : Fin 1))
          (side 1 _ _ rfl) (by show 65 + 0 = k.val; omega)
      · rw [if_neg h2]
        by_cases h3 : k.val = 66
        · rw [if_pos h3]
          exact concatenate_apply_piece 1 [⟨⟨2, ![M, 64]⟩, x0⟩, ⟨⟨2, ![M, 1]⟩, x1⟩, ⟨⟨2, ![M, 1]⟩, x2⟩, ⟨⟨2, ![M, 1]⟩, x3⟩, ⟨⟨2, ![M, 1]⟩, x4⟩] h (ix2 p k) 3 (show 3 < 5 by omega) _ x3 rfl rfl 66 rfl (ix2 p (0 : Fin 1))
            (side 1 _ _ rfl) (by show 66 + 0 = k.val; omega)
        · rw [if_neg h3]
          exact concatenate_apply_piece 1 [⟨⟨2, ![M, 64]⟩, x0⟩, ⟨⟨2, ![M, 1]⟩, x1⟩, ⟨⟨2, ![M, 1]⟩, x2⟩, ⟨⟨2, ![M, 1]⟩, x3⟩, ⟨⟨2, ![M, 1]⟩, x4⟩] h (ix2 p k) 4 (show 4 < 5 by omega) _ x4 rfl rfl 67 rfl (ix2 p (0 : Fin 1))
            (side 1 _ _ rfl) (by show 67 + 0 = k.val; omega)

/-- Batches of rows: `[A, B, 64]` and four `[A, B, 1]` joined along axis 2, at (b, e, k). -/
theorem batch_apply {A B : Nat}
    (x0 : (⟨3, ![A, B, 64]⟩ : Shape).Idx → α) (x1 x2 x3 x4 : (⟨3, ![A, B, 1]⟩ : Shape).Idx → α)
    (h : Shape.Concatenates [(⟨3, ![A, B, 64]⟩ : Shape), ⟨3, ![A, B, 1]⟩, ⟨3, ![A, B, 1]⟩, ⟨3, ![A, B, 1]⟩, ⟨3, ![A, B, 1]⟩] ⟨3, ![A, B, 68]⟩ 2)
    (b : Fin A) (e : Fin B) (k : Fin 68) :
    concatenate ⟨3, ![A, B, 68]⟩ 2 [⟨⟨3, ![A, B, 64]⟩, x0⟩, ⟨⟨3, ![A, B, 1]⟩, x1⟩, ⟨⟨3, ![A, B, 1]⟩, x2⟩, ⟨⟨3, ![A, B, 1]⟩, x3⟩, ⟨⟨3, ![A, B, 1]⟩, x4⟩] h (ix3 b e k)
      = join5 (fun k' => x0 (ix3 b e k')) (x1 (ix3 b e (0 : Fin 1))) (x2 (ix3 b e (0 : Fin 1))) (x3 (ix3 b e (0 : Fin 1))) (x4 (ix3 b e (0 : Fin 1))) k := by
  have hk := k.isLt
  unfold join5
  have side : ∀ (n : Nat) (y : (⟨3, ![A, B, n]⟩ : Shape).Idx) (c : Fin n), y = ix3 b e c →
      ∀ a : Fin 3, a.cast (rfl : (3 : Nat) = 3) ≠ (2 : Fin 3) → (y a).val = (ix3 b e k a).val := by
    intro n y c hy a ha
    subst hy
    match a with
    | ⟨0, _⟩ => rfl
    | ⟨1, _⟩ => rfl
    | ⟨2, _⟩ => exact absurd rfl ha
  by_cases h0 : k.val < 64
  · rw [dif_pos h0]
    exact concatenate_apply_piece 2 [⟨⟨3, ![A, B, 64]⟩, x0⟩, ⟨⟨3, ![A, B, 1]⟩, x1⟩, ⟨⟨3, ![A, B, 1]⟩, x2⟩, ⟨⟨3, ![A, B, 1]⟩, x3⟩, ⟨⟨3, ![A, B, 1]⟩, x4⟩] h (ix3 b e k) 0 (show 0 < 5 by omega) _ x0 rfl rfl 0 rfl (ix3 b e ⟨k.val, h0⟩)
      (side 64 _ _ rfl) (by show 0 + k.val = k.val; omega)
  · rw [dif_neg h0]
    by_cases h1 : k.val = 64
    · rw [if_pos h1]
      exact concatenate_apply_piece 2 [⟨⟨3, ![A, B, 64]⟩, x0⟩, ⟨⟨3, ![A, B, 1]⟩, x1⟩, ⟨⟨3, ![A, B, 1]⟩, x2⟩, ⟨⟨3, ![A, B, 1]⟩, x3⟩, ⟨⟨3, ![A, B, 1]⟩, x4⟩] h (ix3 b e k) 1 (show 1 < 5 by omega) _ x1 rfl rfl 64 rfl (ix3 b e (0 : Fin 1))
        (side 1 _ _ rfl) (by show 64 + 0 = k.val; omega)
    · rw [if_neg h1]
      by_cases h2 : k.val = 65
      · rw [if_pos h2]
        exact concatenate_apply_piece 2 [⟨⟨3, ![A, B, 64]⟩, x0⟩, ⟨⟨3, ![A, B, 1]⟩, x1⟩, ⟨⟨3, ![A, B, 1]⟩, x2⟩, ⟨⟨3, ![A, B, 1]⟩, x3⟩, ⟨⟨3, ![A, B, 1]⟩, x4⟩] h (ix3 b e k) 2 (show 2 < 5 by omega) _ x2 rfl rfl 65 rfl (ix3 b e (0 : Fin 1))
          (side 1 _ _ rfl) (by show 65 + 0 = k.val; omega)
      · rw [if_neg h2]
        by_cases h3 : k.val = 66
        · rw [if_pos h3]
          exact concatenate_apply_piece 2 [⟨⟨3, ![A, B, 64]⟩, x0⟩, ⟨⟨3, ![A, B, 1]⟩, x1⟩, ⟨⟨3, ![A, B, 1]⟩, x2⟩, ⟨⟨3, ![A, B, 1]⟩, x3⟩, ⟨⟨3, ![A, B, 1]⟩, x4⟩] h (ix3 b e k) 3 (show 3 < 5 by omega) _ x3 rfl rfl 66 rfl (ix3 b e (0 : Fin 1))
            (side 1 _ _ rfl) (by show 66 + 0 = k.val; omega)
        · rw [if_neg h3]
          exact concatenate_apply_piece 2 [⟨⟨3, ![A, B, 64]⟩, x0⟩, ⟨⟨3, ![A, B, 1]⟩, x1⟩, ⟨⟨3, ![A, B, 1]⟩, x2⟩, ⟨⟨3, ![A, B, 1]⟩, x3⟩, ⟨⟨3, ![A, B, 1]⟩, x4⟩] h (ix3 b e k) 4 (show 4 < 5 by omega) _ x4 rfl rfl 67 rfl (ix3 b e (0 : Fin 1))
            (side 1 _ _ rfl) (by show 67 + 0 = k.val; omega)

end Cert.JoinedRow

end
-- ==== Proof.HostMlp.lean ====
/-
  What the reference computes, entry by entry.

  The reference works on whole arrays: it negates J, joins (hidden, b_in, b_out, J, -J) along the feature axis into
  [8, 200000, 68], contracts the feature axis with each weight in turn, adds each bias spread over batch and edge,
  and clips the first two results at zero.  Read at (b, e, n), each stage depends on edge (b, e) only, and the last
  stage is the message network of `EdgeMlp` on that edge: the reference's result array is `messages`.
-/
import proofs.«133533_j12395275616824_2_alg».proof.Proof.Gen.ReferenceIdeal.Read
import Idealize.ShloMosaic.Lib.ValueIdx
import proofs.«133533_j12395275616824_2_alg».proof.Proof.EdgeMlp
import proofs.«133533_j12395275616824_2_alg».proof.Proof.JoinedRow

noncomputable section

namespace Cert.ReferenceIdeal.Host

open Cert.ReferenceIdeal Cert.ReferenceIdeal.Read Idealize.ShloMosaic Idealize.ShloMosaic.ValueIdx Cert.EdgeMlp

variable (x0 : (⟨S8x200000x64, .f32⟩ : BufTy).Contents (Elt Ideal))
  (x1 x2 x3 : (⟨S8x200000x1, .f32⟩ : BufTy).Contents (Elt Ideal))
  (x4 : (⟨S68x64, .f32⟩ : BufTy).Contents (Elt Ideal)) (x5 : (⟨S64, .f32⟩ : BufTy).Contents (Elt Ideal))
  (x6 : (⟨S64x64, .f32⟩ : BufTy).Contents (Elt Ideal)) (x7 : (⟨S64, .f32⟩ : BufTy).Contents (Elt Ideal))
  (x8 : (⟨S64x5, .f32⟩ : BufTy).Contents (Elt Ideal)) (x9 : (⟨S5, .f32⟩ : BufTy).Contents (Elt Ideal))

/-- The joined array at (b, e, k): the network's input k of edge (b, e).  (The second array is J, the third and
    fourth b_in and b_out; the join takes them in the order b_in, b_out, J, -J.) -/
theorem input_apply (b : Fin 8) (e : Fin 200000) (k : Fin 68) :
    val_main_v1 (F := Ideal) x0 x1 x2 x3 (ix3 b e k)
      = feat (fun k' => x0 (ix3 b e k')) (x2 (ix3 b e (0 : Fin 1))) (x3 (ix3 b e (0 : Fin 1))) (x1 (ix3 b e (0 : Fin 1))) k := by
  unfold val_main_v1
  refine (Cert.JoinedRow.batch_apply _ _ _ _ _ _ b e k).trans ?_
  rfl

/-- The first clipped layer at (b, e, n). -/
theorem hidden1_apply (b : Fin 8) (e : Fin 200000) (n : Fin 64) :
    val_main_v6 (F := Ideal) x0 x1 x2 x3 x4 x5 (ix3 b e n)
      = clip (dense (feat (fun k' => x0 (ix3 b e k')) (x2 (ix3 b e (0 : Fin 1))) (x3 (ix3 b e (0 : Fin 1))) (x1 (ix3 b e (0 : Fin 1))))
          (fun k n => x4 (ix2 k n)) (fun n => x5 (ix1 n))) n := by
  have el : ∀ k : Fin 68, lidx_main_v2 (ix3 b e n) k = ix3 b e k := fun k => funext fun a => Fin.ext (by
    match a with
    | ⟨0, _⟩ => rfl
    | ⟨1, _⟩ => rfl
    | ⟨2, _⟩ => rfl)
  have er : ∀ k : Fin 68, ridx_main_v2 (ix3 b e n) k = ix2 k n := fun k => funext fun a => Fin.ext (by
    match a with
    | ⟨0, _⟩ => rfl
    | ⟨1, _⟩ => rfl)
  have eb : idx_main_v3 (idx_main_v4 (ix3 b e n)) = ix1 n := funext fun a => Fin.ext (by
    match a with
    | ⟨0, _⟩ => rfl)
  rw [val_main_v6_apply, val_main_v5_apply, val_main_v2_apply, val_main_v4_apply, val_main_v3_apply,
    val_main_call0_v0_apply, val_main_call0_cst_apply, eb]
  simp only [el, er, input_apply]
  rfl

/-- The second clipped layer at (b, e, n). -/
theorem hidden2_apply (b : Fin 8) (e : Fin 200000) (n : Fin 64) :
    val_main_v11 (F := Ideal) x0 x1 x2 x3 x4 x5 x6 x7 (ix3 b e n)
      = clip (dense (clip (dense (feat (fun k' => x0 (ix3 b e k')) (x2 (ix3 b e (0 : Fin 1))) (x3 (ix3 b e (0 : Fin 1))) (x1 (ix3 b e (0 : Fin 1))))
          (fun k n => x4 (ix2 k n)) (fun n => x5 (ix1 n))))
          (fun k n => x6 (ix2 k n)) (fun n => x7 (ix1 n))) n := by
  have el : ∀ k : Fin 64, lidx_main_v7 (ix3 b e n) k = ix3 b e k := fun k => funext fun a => Fin.ext (by
    match a with
    | ⟨0, _⟩ => rfl
    | ⟨1, _⟩ => rfl
    | ⟨2, _⟩ => rfl)
  have er : ∀ k : Fin 64, ridx_main_v7 (ix3 b e n) k = ix2 k n := fun k => funext fun a => Fin.ext (by
    match a with
    | ⟨0, _⟩ => rfl
    | ⟨1, _⟩ => rfl)
  have eb : idx_main_v8 (idx_main_v9 (ix3 b e n)) = ix1 n := funext fun a => Fin.ext (by
    match a with
    | ⟨0, _⟩ => rfl)
  rw [val_main_v11_apply, val_main_v10_apply, val_main_v7_apply, val_main_v9_apply, val_main_v8_apply,
    val_main_call1_v0_apply, val_main_call1_cst_apply, eb]
  simp only [el, er, hidden1_apply]
  rfl

/-- The result at (b, e, n): the message of edge (b, e). -/
theorem out_apply (b : Fin 8) (e : Fin 200000) (n : Fin 5) :
    val_main_v15 (F := Ideal) x0 x1 x2 x3 x4 x5 x6 x7 x8 x9 (ix3 b e n)
      = mlp (fun k' => x0 (ix3 b e k')) (x2 (ix3 b e (0 : Fin 1))) (x3 (ix3 b e (0 : Fin 1))) (x1 (ix3 b e (0 : Fin 1)))
          (fun k n => x4 (ix2 k n)) (fun n => x5 (ix1 n)) (fun k n => x6 (ix2 k n)) (fun n => x7 (ix1 n))
          (fun k n => x8 (ix2 k n)) (fun n => x9 (ix1 n)) n := by
  have el : ∀ k : Fin 64, lidx_main_v12 (ix3 b e n) k = ix3 b e k := fun k => funext fun a => Fin.ext (by
    match a with
    | ⟨0, _⟩ => rfl
    | ⟨1, _⟩ => rfl
    | ⟨2, _⟩ => rfl)
  have er : ∀ k : Fin 64, ridx_main_v12 (ix3 b e n) k = ix2 k n := fun k => funext fun a => Fin.ext (by
    match a with
    | ⟨0, _⟩ => rfl
    | ⟨1, _⟩ => rfl)
  have eb : idx_main_v13 (idx_main_v14 (ix3 b e n)) = ix1 n := funext fun a => Fin.ext (by
    match a with
    | ⟨0, _⟩ => rfl)
  rw [val_main_v15_apply, val_main_v12_apply, val_main_v14_apply, val_main_v13_apply, eb]
  simp only [el, er, hidden2_apply]
  rfl

/-- The reference's result array is `messages` of its ten arguments. -/
theorem result_eq :
    val_main_v15 (F := Ideal) x0 x1 x2 x3 x4 x5 x6 x7 x8 x9 = messages x0 x1 x2 x3 x4 x5 x6 x7 x8 x9 := by
  funext i
  obtain ⟨b, e, n, rfl⟩ : ∃ (b : Fin 8) (e : Fin 200000) (n : Fin 5), i = ix3 b e n := ⟨i 0, i 1, i 2, eq_ix3 i⟩
  exact out_apply x0 x1 x2 x3 x4 x5 x6 x7 x8 x9 b e n

end Cert.ReferenceIdeal.Host

end
-- ==== Proof.LibRowOps.lean ====
/-
  Two-dimensional vector operations read at one index, on the extended reals.

  A kernel body that projects, normalises and contracts rows is a composition of a few operations on
  [a, b] vectors.  Each lemma below reads one of them at the index (r, c), with both coordinates explicit:
  a matrix product into a zero accumulator is the sum over the shared axis; a sum or a maximum along the
  second axis is the sum or the fold of `max` over that row; a length-a vector viewed as an [a, 1] column, the
  column repeated along a second axis, and a transpose only move coordinates.
-/
import Idealize.ShloMosaic.PureOps.Ideal.Laws
import Idealize.ShloMosaic.Lib.ValueIdx
import Idealize.ShloMosaic.Lib.Pipeline.Value

noncomputable section

namespace Cert.RowOps

open Idealize.ShloMosaic Idealize.ShloMosaic.ValueIdx

/-! ## A plain matrix product -/

/-- The dimension numbers of a plain `[M, K] × [K, N]` product: contract the left operand's second axis with the
    right operand's first, no batch axis. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Plain

variable {M K N : Nat} {d : DotDims ⟨2, ![M, K]⟩ ⟨2, ![K, N]⟩ ⟨2, ![M, N]⟩}

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

theorem contr_rank (hd : IsPlain d) : d.contr.rank = 1 := by
  rw [d.rank_contr, hd.lc]; rfl

theorem contr_size (hd : IsPlain d) : d.contr.size ⟨0, by rw [contr_rank hd]; exact Nat.one_pos⟩ = K := by
  rw [d.size_contr 0 (by rw [hd.lc]; exact Nat.one_pos)]
  simp only [hd.lc, List.getElem_cons_zero]
  rfl

/-- The left operand's row coordinate is the result's row coordinate. -/
theorem lhsIdx_row (hd : IsPlain d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact val_congr j _ _ _ _ (by simp [hd.lb, hd.ln])

/-- The right operand's column coordinate is the result's column coordinate. -/
theorem rhsIdx_col (hd : IsPlain d) (j : (⟨2, ![M, N]⟩ : Shape).Idx) (k : d.contr.Idx) :
    (d.rhsIdx j k 1).val = (j 1).val := by
  unfold DotDims.rhsIdx
  rw [dif_neg (by rw [hd.rb]; exact List.not_mem_nil), dif_pos (by rw [hd.rn]; exact List.mem_singleton.mpr rfl)]
  simp only [Fin.val_cast]
  exact val_congr j _ _ _ _ (by simp [hd.lb, hd.ln, hd.rn])

/-- A plain matrix product into a zero accumulator, at (r, c): the sum over the shared axis of the products. -/
theorem matmul_zero_apply (hd : IsPlain d) {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) := by
  rw [Ideal.matmul_constant_zero_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Plain

/-! ## Reductions along the second axis -/

section Rows

variable {a b : Nat} {φ : FTy}

/-- The index over row `r` with second coordinate `k`. -/
theorem lift_row (h : (⟨2, ![a, b]⟩ : Shape).Reduces [1] ⟨1, ![a]⟩) (r : Fin a) (k : Fin b) :
    h.lift (ix1 r) k = ix2 r k :=
  funext fun c => Fin.ext (by
    show h.liftVal (ix1 r) k.val c = (ix2 r k c).val
    unfold Shape.Reduces.liftVal
    match c with
    | ⟨0, _⟩ => rfl
    | ⟨1, _⟩ => rfl)

/-- A sum along the second axis, at row `r`: the sum of that row. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the second axis, at row `r`: the fold of `max` over that row from the starting word's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (Finset.fold max _ · _) (funext fun k => congrArg src (lift_row h r k))

end Rows

/-! ## Moving coordinates -/

section Layout

variable {α : Type} {a b : Nat}

/-- A length-`a` vector viewed as an `[a, 1]` column reads, at (i, u), the vector at i. -/
theorem column_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column repeated along a second axis reads, at (i, j), the column at (i, 0). -/
theorem spread_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

/-- A transposed `[a, b]` vector reads, at (p, q), the vector at (q, p). -/
theorem swap_apply (x : (⟨2, ![a, b]⟩ : Shape).Idx → α) (h : (⟨2, ![a, b]⟩ : Shape).Transposes [1, 0] ⟨2, ![b, a]⟩)
    (p : Fin b) (q : Fin a) : transpose ⟨2, ![b, a]⟩ [1, 0] x h (ix2 p q) = x (ix2 q p) :=
  transpose_apply [1, 0] x h _ _ (fun c => by
    match c with
    | ⟨0, _⟩ => rfl
    | ⟨1, _⟩ => rfl)

end Layout

end Cert.RowOps

end
-- ==== Proof.BlockMlp.lean ====
/-
  What the kernel's body computes on one block of 4000 edges, entry by entry.

  The body loads a block of each edge array (hidden features [1, 4000, 64]; b_in, b_out, J as [1, 4000, 1]), the three
  weights whole and the three biases as single rows [1, n].  It drops the leading unit axis, lays the features beside
  b_in, b_out, J and 0 - J as 68 columns, and applies three matrix products into zero accumulators, each followed by
  the bias row repeated over the 4000 rows, the first two also by a maximum with a splat zero; the [4000, 5] result is
  stored back as [1, 4000, 5].  Entry (p, o) of that result depends on row p of each edge block only, and is the
  message network of `EdgeMlp` applied to that row.
-/
import proofs.«133533_j12395275616824_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import proofs.«133533_j12395275616824_2_alg».proof.Proof.EdgeMlp
import proofs.«133533_j12395275616824_2_alg».proof.Proof.JoinedRow
import proofs.«133533_j12395275616824_2_alg».proof.Proof.LibRowOps

noncomputable section

namespace Cert.KernelIdeal.Block

open Cert.KernelIdeal Cert.KernelIdeal.Gen Idealize.ShloMosaic Idealize.ShloMosaic.ValueIdx Cert.EdgeMlp Cert.RowOps

/-! ## One layer over a block of rows -/

section Layer

variable {M K N : Nat} {d : DotDims ⟨2, ![M, K]⟩ ⟨2, ![K, N]⟩ ⟨2, ![M, N]⟩}

/-- A bias held as one row [1, N], repeated over M rows, reads at (r, c) the row's entry c. -/
theorem biasRow_apply {α : Type} (b : (⟨2, ![1, N]⟩ : Shape).Idx → α)
    (hs : (⟨2, ![1, N]⟩ : Shape).ShapeCasts ⟨2, ![1, N]⟩) (hb : (⟨2, ![1, N]⟩ : Shape).Broadcasts ⟨2, ![M, N]⟩)
    (r : Fin M) (c : Fin N) :
    broadcastTo ⟨2, ![M, N]⟩ (shapeCast ⟨2, ![1, N]⟩ b hs) hb (ix2 r c) = b (ix2 (0 : Fin 1) c) := by
  rw [shapeCast_self]
  exact broadcastTo_1b_ab_apply b hb r c

/-- Rows times weight into a zero accumulator, plus the bias row: at (r, c) the linear layer of row r. -/
theorem linear_apply (hd : IsPlain d) (x : FVec Ideal ⟨2, ![M, K]⟩ .f32) (w : FVec Ideal ⟨2, ![K, N]⟩ .f32)
    (b : FVec Ideal ⟨2, ![1, N]⟩ .f32)
    (hs : (⟨2, ![1, N]⟩ : Shape).ShapeCasts ⟨2, ![1, N]⟩) (hb : (⟨2, ![1, N]⟩ : Shape).Broadcasts ⟨2, ![M, N]⟩)
    (r : Fin M) (c : Fin N) :
    addf (matmul d none x w (constant ⟨2, ![M, N]⟩ .f32 0x00000000#32))
        (broadcastTo ⟨2, ![M, N]⟩ (shapeCast ⟨2, ![1, N]⟩ b hs) hb) (ix2 r c)
      = dense (fun k => x (ix2 r k)) (fun k n => w (ix2 k n)) (fun n => b (ix2 (0 : Fin 1) n)) c := by
  rw [addf_apply, biasRow_apply]
  exact congrArg (fun s => s + b (ix2 (0 : Fin 1) c)) (matmul_zero_apply hd none x w r c)

/-- The same followed by a maximum with a splat zero: the clipped layer of row r. -/
theorem clipped_apply (hd : IsPlain d) (x : FVec Ideal ⟨2, ![M, K]⟩ .f32) (w : FVec Ideal ⟨2, ![K, N]⟩ .f32)
    (b : FVec Ideal ⟨2, ![1, N]⟩ .f32)
    (hs : (⟨2, ![1, N]⟩ : Shape).ShapeCasts ⟨2, ![1, N]⟩) (hb : (⟨2, ![1, N]⟩ : Shape).Broadcasts ⟨2, ![M, N]⟩)
    (r : Fin M) (c : Fin N) :
    maximumf (addf (matmul d none x w (constant ⟨2, ![M, N]⟩ .f32 0x00000000#32))
        (broadcastTo ⟨2, ![M, N]⟩ (shapeCast ⟨2, ![1, N]⟩ b hs) hb))
        (broadcast ⟨2, ![M, N]⟩ (Scalar.ofBits (F := Ideal) .f32 0x00000000#32)) (ix2 r c)
      = clip (dense (fun k => x (ix2 r k)) (fun k n => w (ix2 k n)) (fun n => b (ix2 (0 : Fin 1) n))) c := by
  rw [maximumf_apply, broadcast_apply, linear_apply hd]
  rfl

end Layer

/-! ## The body's three products are plain [M, K] × [K, N] products -/

theorem plain1 : IsPlain dot_S4000x68_S68x64_S4000x64_1_0_0_1_n_n := ⟨rfl, rfl, rfl, rfl, rfl, rfl⟩
theorem plain2 : IsPlain dot_S4000x64_S64x64_S4000x64_1_0_0_1_n_n := ⟨rfl, rfl, rfl, rfl, rfl, rfl⟩
theorem plain3 : IsPlain dot_S4000x64_S64x5_S4000x5_1_0_0_1_n_n := ⟨rfl, rfl, rfl, rfl, rfl, rfl⟩

/-! ## The body on the loaded blocks -/

section Body

variable (X0 : Vec Ideal S1x4000x64 .f32) (X1 X2 X3 : Vec Ideal S1x4000x1 .f32)
  (X4 : Vec Ideal S68x64 .f32) (X5 : Vec Ideal S1x64 .f32) (X6 : Vec Ideal S64x64 .f32) (X7 : Vec Ideal S1x64 .f32)
  (X8 : Vec Ideal S64x5 .f32) (X9 : Vec Ideal S1x5 .f32)

/-- Row p of the 68 joined columns: the edge's hidden features, then the three scalars, then zero less the third. -/
theorem input_apply (p : Fin 4000) (k : Fin 68) :
    concatenate S4000x68 1
        [⟨S4000x64, shapeCast S4000x64 X0 shapeCasts_S1x4000x64_S4000x64⟩,
         ⟨S4000x1, shapeCast S4000x1 X1 shapeCasts_S1x4000x1_S4000x1⟩,
         ⟨S4000x1, shapeCast S4000x1 X2 shapeCasts_S1x4000x1_S4000x1⟩,
         ⟨S4000x1, shapeCast S4000x1 X3 shapeCasts_S1x4000x1_S4000x1⟩,
         ⟨S4000x1, subf (broadcast S4000x1 (Scalar.ofBits (F := Ideal) .f32 0x00000000#32))
            (shapeCast S4000x1 X3 shapeCasts_S1x4000x1_S4000x1)⟩]
        concatenates_S4000x64_S4000x1_S4000x1_S4000x1_S4000x1_S4000x68_d1 (ix2 p k)
      = feat (fun k' => X0 (ix3 (0 : Fin 1) p k')) (X1 (ix3 (0 : Fin 1) p (0 : Fin 1)))
          (X2 (ix3 (0 : Fin 1) p (0 : Fin 1))) (X3 (ix3 (0 : Fin 1) p (0 : Fin 1))) k := by
  have e0 : (fun k' : Fin 64 => shapeCast S4000x64 X0 shapeCasts_S1x4000x64_S4000x64 (ix2 p k'))
      = fun k' => X0 (ix3 (0 : Fin 1) p k') := funext fun k' => shapeCast_1ab_ab_apply X0 _ p k'
  have e1 : shapeCast S4000x1 X1 shapeCasts_S1x4000x1_S4000x1 (ix2 p (0 : Fin 1)) = X1 (ix3 (0 : Fin 1) p (0 : Fin 1)) :=
    shapeCast_1ab_ab_apply X1 _ p 0
  have e2 : shapeCast S4000x1 X2 shapeCasts_S1x4000x1_S4000x1 (ix2 p (0 : Fin 1)) = X2 (ix3 (0 : Fin 1) p (0 : Fin 1)) :=
    shapeCast_1ab_ab_apply X2 _ p 0
  have e3 : shapeCast S4000x1 X3 shapeCasts_S1x4000x1_S4000x1 (ix2 p (0 : Fin 1)) = X3 (ix3 (0 : Fin 1) p (0 : Fin 1)) :=
    shapeCast_1ab_ab_apply X3 _ p 0
  have e4 : subf (broadcast S4000x1 (Scalar.ofBits (F := Ideal) .f32 0x00000000#32))
      (shapeCast S4000x1 X3 shapeCasts_S1x4000x1_S4000x1) (ix2 p (0 : Fin 1)) = -(X3 (ix3 (0 : Fin 1) p (0 : Fin 1))) := by
    rw [subf_apply, broadcast_apply, e3]
    exact z_sub _
  refine (Cert.JoinedRow.rows_apply _ _ _ _ _ _ p k).trans ?_
  rw [e0, e1, e2, e3, e4]
  rfl

/-- The second hidden layer's entry (p, k2). -/
theorem hidden_apply (p : Fin 4000) (k2 : Fin 64) :
    k0_pay2 (F := Ideal) X0 X1 X2 X3 X4 X5 X6 X7 (ix2 p k2)
      = clip (dense (clip (dense (feat (fun k' => X0 (ix3 (0 : Fin 1) p k')) (X1 (ix3 (0 : Fin 1) p (0 : Fin 1)))
            (X2 (ix3 (0 : Fin 1) p (0 : Fin 1))) (X3 (ix3 (0 : Fin 1) p (0 : Fin 1))))
          (fun k n => X4 (ix2 k n)) (fun n => X5 (ix2 (0 : Fin 1) n))))
          (fun k n => X6 (ix2 k n)) (fun n => X7 (ix2 (0 : Fin 1) n))) k2 := by
  unfold k0_pay2
  refine (clipped_apply plain2 _ X6 X7 _ _ p k2).trans ?_
  refine congrArg (fun v => clip (dense v (fun k n => X6 (ix2 k n)) (fun n => X7 (ix2 (0 : Fin 1) n))) k2) (funext fun k1 => ?_)
  refine (clipped_apply plain1 _ X4 X5 _ _ p k1).trans ?_
  refine congrArg (fun v => clip (dense v (fun k n => X4 (ix2 k n)) (fun n => X5 (ix2 (0 : Fin 1) n))) k1) (funext fun k0 => ?_)
  exact input_apply X0 X1 X2 X3 p k0

/-- The stored block's entry (u, p, o): the message of the edge in row p. -/
theorem stored_apply (u : Fin 1) (p : Fin 4000) (o : Fin 5) :
    k0_pay1 (F := Ideal) (k0_pay2 X0 X1 X2 X3 X4 X5 X6 X7) X8 X9 (ix3 u p o)
      = mlp (fun k' => X0 (ix3 (0 : Fin 1) p k')) (X1 (ix3 (0 : Fin 1) p (0 : Fin 1)))
          (X2 (ix3 (0 : Fin 1) p (0 : Fin 1))) (X3 (ix3 (0 : Fin 1) p (0 : Fin 1)))
          (fun k n => X4 (ix2 k n)) (fun n => X5 (ix2 (0 : Fin 1) n))
          (fun k n => X6 (ix2 k n)) (fun n => X7 (ix2 (0 : Fin 1) n))
          (fun k n => X8 (ix2 k n)) (fun n => X9 (ix2 (0 : Fin 1) n)) o := by
  unfold k0_pay1
  refine (shapeCast_ab_1ab_apply _ _ u p o).trans ?_
  refine (linear_apply plain3 _ X8 X9 _ _ p o).trans ?_
  unfold mlp
  exact congrArg (fun v => dense v (fun k n => X8 (ix2 k n)) (fun n => X9 (ix2 (0 : Fin 1) n)) o)
    (funext fun k2 => hidden_apply X0 X1 X2 X3 X4 X5 X6 X7 p k2)

end Body

end Cert.KernelIdeal.Block

end
-- ==== Proof.EdgeBlocks.lean ====
/-
  From the blocks the kernel writes to the whole array of messages.

  The grid has 8 × 50 points; point (b, e) works on edges 4000 e … 4000 e + 3999 of batch b.  Every edge array and
  the result move with the same block index (b, e, 0), so row p of each input block and row p of the output block
  belong to one edge, (b, 4000 e + p).  The weights are staged whole at every point, and the three biases arrive as
  the single rows the host made of them before the launch.  With the body's arithmetic read entry by entry
  (`BlockMlp`), what a point writes back is its block of `messages`; edge e' of batch b lies in the block of point
  (b, e' / 4000), so the blocks cover the result array, which therefore ends holding `messages` of the arguments.
-/
import proofs.«133533_j12395275616824_2_alg».proof.Proof.Gen.KernelIdeal.Value
import Idealize.ShloMosaic.Lib.Pipeline.Value
import Idealize.ShloMosaic.Lib.StableHlo.Run
import Idealize.ShloMosaic.Lib.ValueIdx
import Idealize.ShloMosaic.Lib.ValueLayout
import proofs.«133533_j12395275616824_2_alg».proof.Proof.EdgeMlp
import proofs.«133533_j12395275616824_2_alg».proof.Proof.BlockMlp

set_option maxRecDepth 16384

noncomputable section

namespace Cert.KernelIdeal.Edges

open Cert.KernelIdeal Cert.KernelIdeal.Gen Cert.KernelIdeal.Value Idealize.ShloMosaic Idealize.ShloMosaic.TcCoe
open Idealize.SL.Sem Idealize.ShloMosaic.ValueIdx Idealize.ShloMosaic.StableHlo Cert.EdgeMlp
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-! ## Where each window's block sits -/

/-- The four edge windows move with the result window, and none of the five moves along the last axis. -/
theorem idx_facts (t : Fin cfg0.N) :
    (win0_0.index t (0 : Fin 3) = win0_10.index t (0 : Fin 3) ∧ win0_0.index t (1 : Fin 3) = win0_10.index t (1 : Fin 3) ∧ win0_0.index t (2 : Fin 3) = 0)
    ∧ (win0_1.index t (0 : Fin 3) = win0_10.index t (0 : Fin 3) ∧ win0_1.index t (1 : Fin 3) = win0_10.index t (1 : Fin 3) ∧ win0_1.index t (2 : Fin 3) = 0)
    ∧ (win0_2.index t (0 : Fin 3) = win0_10.index t (0 : Fin 3) ∧ win0_2.index t (1 : Fin 3) = win0_10.index t (1 : Fin 3) ∧ win0_2.index t (2 : Fin 3) = 0)
    ∧ (win0_3.index t (0 : Fin 3) = win0_10.index t (0 : Fin 3) ∧ win0_3.index t (1 : Fin 3) = win0_10.index t (1 : Fin 3) ∧ win0_3.index t (2 : Fin 3) = 0)
    ∧ win0_10.index t (2 : Fin 3) = 0 :=
  ⟨⟨rfl, rfl, rfl⟩, ⟨rfl, rfl, rfl⟩, ⟨rfl, rfl, rfl⟩, ⟨rfl, rfl, rfl⟩, rfl⟩

/-- The weight and bias windows stay at block (0, 0). -/
theorem idx_whole (t : Fin cfg0.N) :
    (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0) :=
  ⟨⟨rfl, rfl⟩, ⟨rfl, rfl⟩, ⟨rfl, rfl⟩, ⟨rfl, rfl⟩, ⟨rfl, rfl⟩, ⟨rfl, rfl⟩⟩

theorem stride_0 : grid0.stride (0 : Fin 2) = 50 := by decide
theorem stride_1 : grid0.stride (1 : Fin 2) = 1 := by decide

/-- The result window's block index at the t-th point: batch t / 50, tile t mod 50. -/
theorem index10_val (t : Fin cfg0.N) :
    win0_10.index t (0 : Fin 3) = t.val / 50 % 8 ∧ win0_10.index t (1 : Fin 3) = t.val % 50 := by
  constructor
  · show (BitVec.ofNat 32 (t.val / grid0.stride (0 : Fin 2) % 8)).toNat = t.val / 50 % 8
    rw [stride_0, BitVec.toNat_ofNat]
    exact Nat.mod_eq_of_lt (Nat.lt_of_lt_of_le (Nat.mod_lt _ (by decide)) (by decide))
  · show (BitVec.ofNat 32 (t.val / grid0.stride (1 : Fin 2) % 50)).toNat = t.val % 50
    rw [stride_1, BitVec.toNat_ofNat, Nat.div_one]
    exact Nat.mod_eq_of_lt (Nat.lt_of_lt_of_le (Nat.mod_lt _ (by decide)) (by decide))

/-! ## Each input block as entries of the argument arrays -/

/-- The hidden-feature block at point t holds, in row p, the features of the edge at the block's row offset plus p. -/
theorem hidden_apply (c : Dev nD) (t : Fin cfg0.N) (p : Fin 4000) (k : Fin 64) (i : S8x200000x64.Idx)
    (h0 : (i 0).val = win0_10.index t (0 : Fin 3)) (h1 : (i 1).val = win0_10.index t (1 : Fin 3) * 4000 + p.val)
    (h2 : (i 2).val = k.val) :
    (iblk m c 0 t : Vec Ideal S1x4000x64 .f32) (ix3 (0 : Fin 1) p k) = m ((c : Thread nD τ).loc main_arg0) i := by
  obtain ⟨e0, e1, e2⟩ := (idx_facts t).1
  unfold iblk
  rw [View.read_apply]
  refine (congrFun (V_main_arg0 m c) _).trans (congrArg (m ((c : Thread nD τ).loc main_arg0)) (funext fun a => Fin.ext ?_))
  match a with
  | ⟨0, _⟩ => show win0_0.index t (0 : Fin 3) * 1 + 1 * 0 = (i 0).val; rw [e0, h0]; omega
  | ⟨1, _⟩ => show win0_0.index t (1 : Fin 3) * 4000 + 1 * p.val = (i 1).val; rw [e1, h1]; omega
  | ⟨2, _⟩ => show win0_0.index t (2 : Fin 3) * 64 + 1 * k.val = (i 2).val; rw [e2, h2]; omega

/-- Window 1's block at point t holds, in row p, the entry of its array at the block's row offset plus p. -/
theorem bin_apply (c : Dev nD) (t : Fin cfg0.N) (p : Fin 4000) (i : S8x200000x1.Idx)
    (h0 : (i 0).val = win0_10.index t (0 : Fin 3)) (h1 : (i 1).val = win0_10.index t (1 : Fin 3) * 4000 + p.val)
    (h2 : (i 2).val = 0) :
    (iblk m c 1 t : Vec Ideal S1x4000x1 .f32) (ix3 (0 : Fin 1) p (0 : Fin 1)) = m ((c : Thread nD τ).loc main_arg2) i := by
  obtain ⟨e0, e1, e2⟩ := (idx_facts t).2.1
  unfold iblk
  rw [View.read_apply]
  refine (congrFun (V_main_arg2 m c) _).trans (congrArg (m ((c : Thread nD τ).loc main_arg2)) (funext fun a => Fin.ext ?_))
  match a with
  | ⟨0, _⟩ => show win0_1.index t (0 : Fin 3) * 1 + 1 * 0 = (i 0).val; rw [e0, h0]; omega
  | ⟨1, _⟩ => show win0_1.index t (1 : Fin 3) * 4000 + 1 * p.val = (i 1).val; rw [e1, h1]; omega
  | ⟨2, _⟩ => show win0_1.index t (2 : Fin 3) * 1 + 1 * 0 = (i 2).val; rw [e2, h2]

/-- Window 2's block at point t holds, in row p, the entry of its array at the block's row offset plus p. -/
theorem bout_apply (c : Dev nD) (t : Fin cfg0.N) (p : Fin 4000) (i : S8x200000x1.Idx)
    (h0 : (i 0).val = win0_10.index t (0 : Fin 3)) (h1 : (i 1).val = win0_10.index t (1 : Fin 3) * 4000 + p.val)
    (h2 : (i 2).val = 0) :
    (iblk m c 2 t : Vec Ideal S1x4000x1 .f32) (ix3 (0 : Fin 1) p (0 : Fin 1)) = m ((c : Thread nD τ).loc main_arg3) i := by
  obtain ⟨e0, e1, e2⟩ := (idx_facts t).2.2.1
  unfold iblk
  rw [View.read_apply]
  refine (congrFun (V_main_arg3 m c) _).trans (congrArg (m ((c : Thread nD τ).loc main_arg3)) (funext fun a => Fin.ext ?_))
  match a with
  | ⟨0, _⟩ => show win0_2.index t (0 : Fin 3) * 1 + 1 * 0 = (i 0).val; rw [e0, h0]; omega
  | ⟨1, _⟩ => show win0_2.index t (1 : Fin 3) * 4000 + 1 * p.val = (i 1).val; rw [e1, h1]; omega
  | ⟨2, _⟩ => show win0_2.index t (2 : Fin 3) * 1 + 1 * 0 = (i 2).val; rw [e2, h2]

/-- Window 3's block at point t holds, in row p, the entry of its array at the block's row offset plus p. -/
theorem coupling_apply (c : Dev nD) (t : Fin cfg0.N) (p : Fin 4000) (i : S8x200000x1.Idx)
    (h0 : (i 0).val = win0_10.index t (0 : Fin 3)) (h1 : (i 1).val = win0_10.index t (1 : Fin 3) * 4000 + p.val)
    (h2 : (i 2).val = 0) :
    (iblk m c 3 t : Vec Ideal S1x4000x1 .f32) (ix3 (0 : Fin 1) p (0 : Fin 1)) = m ((c : Thread nD τ).loc main_arg1) i := by
  obtain ⟨e0, e1, e2⟩ := (idx_facts t).2.2.2.1
  unfold iblk
  rw [View.read_apply]
  refine (congrFun (V_main_arg1 m c) _).trans (congrArg (m ((c : Thread nD τ).loc main_arg1)) (funext fun a => Fin.ext ?_))
  match a with
  | ⟨0, _⟩ => show win0_3.index t (0 : Fin 3) * 1 + 1 * 0 = (i 0).val; rw [e0, h0]; omega
  | ⟨1, _⟩ => show win0_3.index t (1 : Fin 3) * 4000 + 1 * p.val = (i 1).val; rw [e1, h1]; omega
  | ⟨2, _⟩ => show win0_3.index t (2 : Fin 3) * 1 + 1 * 0 = (i 2).val; rw [e2, h2]

/-- Window 4 is the whole of its array at every point. -/
theorem weight1_apply (c : Dev nD) (t : Fin cfg0.N) (k : Fin 68) (n : Fin 64) :
    (iblk m c 4 t : Vec Ideal S68x64 .f32) (ix2 k n) = m ((c : Thread nD τ).loc main_arg4) (ix2 k n) := by
  obtain ⟨e0, e1⟩ := (idx_whole t).1
  unfold iblk
  rw [View.read_apply]
  refine (congrFun (V_main_arg4 m c) _).trans (congrArg (m ((c : Thread nD τ).loc main_arg4)) (funext fun a => Fin.ext ?_))
  match a with
  | ⟨0, _⟩ => show win0_4.index t (0 : Fin 2) * 68 + 1 * k.val = k.val; rw [e0]; omega
  | ⟨1, _⟩ => show win0_4.index t (1 : Fin 2) * 64 + 1 * n.val = n.val; rw [e1]; omega

/-- Window 6 is the whole of its array at every point. -/
theorem weight2_apply (c : Dev nD) (t : Fin cfg0.N) (k : Fin 64) (n : Fin 64) :
    (iblk m c 6 t : Vec Ideal S64x64 .f32) (ix2 k n) = m ((c : Thread nD τ).loc main_arg6) (ix2 k n) := by
  obtain ⟨e0, e1⟩ := (idx_whole t).2.2.1
  unfold iblk
  rw [View.read_apply]
  refine (congrFun (V_main_arg6 m c) _).trans (congrArg (m ((c : Thread nD τ).loc main_arg6)) (funext fun a => Fin.ext ?_))
  match a with
  | ⟨0, _⟩ => show win0_6.index t (0 : Fin 2) * 64 + 1 * k.val = k.val; rw [e0]; omega
  | ⟨1, _⟩ => show win0_6.index t (1 : Fin 2) * 64 + 1 * n.val = n.val; rw [e1]; omega

/-- Window 8 is the whole of its array at every point. -/
theorem weight3_apply (c : Dev nD) (t : Fin cfg0.N) (k : Fin 64) (n : Fin 5) :
    (iblk m c 8 t : Vec Ideal S64x5 .f32) (ix2 k n) = m ((c : Thread nD τ).loc main_arg8) (ix2 k n) := by
  obtain ⟨e0, e1⟩ := (idx_whole t).2.2.2.2.1
  unfold iblk
  rw [View.read_apply]
  refine (congrFun (V_main_arg8 m c) _).trans (congrArg (m ((c : Thread nD τ).loc main_arg8)) (funext fun a => Fin.ext ?_))
  match a with
  | ⟨0, _⟩ => show win0_8.index t (0 : Fin 2) * 64 + 1 * k.val = k.val; rw [e0]; omega
  | ⟨1, _⟩ => show win0_8.index t (1 : Fin 2) * 5 + 1 * n.val = n.val; rw [e1]; omega

/-- Window 5 is the one row the host made of a bias vector: its entry (0, n) is the vector's entry n. -/
theorem bias1_apply (c : Dev nD) (t : Fin cfg0.N) (n : Fin 64) :
    (iblk m c 5 t : Vec Ideal S1x64 .f32) (ix2 (0 : Fin 1) n) = m ((c : Thread nD τ).loc main_arg5) (ix1 n) := by
  obtain ⟨e0, e1⟩ := (idx_whole t).2.1
  have hv : (V m c main_v0 : S1x64.Idx → EReal) = shapeCast S1x64 (m ((c : Thread nD τ).loc main_arg5)) shapeCasts_S64_S1x64 := by
    dsimp only [Gen.V, Gen.hostOps0]; after_results; rfl
  have he : ((cfg0.win 5).blk t).view.emb (ix2 (0 : Fin 1) n) = (ix2 (0 : Fin 1) n : S1x64.Idx) :=
    funext fun a => Fin.ext (by
      match a with
      | ⟨0, _⟩ => show win0_5.index t (0 : Fin 2) * 1 + 1 * 0 = 0; rw [e0]
      | ⟨1, _⟩ => show win0_5.index t (1 : Fin 2) * 64 + 1 * n.val = n.val; rw [e1]; omega)
  unfold iblk
  rw [View.read_apply, he]
  exact (congrFun hv _).trans (shapeCast_a_1a_apply _ _ (0 : Fin 1) n)

/-- Window 7 is the one row the host made of a bias vector: its entry (0, n) is the vector's entry n. -/
theorem bias2_apply (c : Dev nD) (t : Fin cfg0.N) (n : Fin 64) :
    (iblk m c 7 t : Vec Ideal S1x64 .f32) (ix2 (0 : Fin 1) n) = m ((c : Thread nD τ).loc main_arg7) (ix1 n) := by
  obtain ⟨e0, e1⟩ := (idx_whole t).2.2.2.1
  have hv : (V m c main_v1 : S1x64.Idx → EReal) = shapeCast S1x64 (m ((c : Thread nD τ).loc main_arg7)) shapeCasts_S64_S1x64 := by
    dsimp only [Gen.V, Gen.hostOps0]; after_results; rfl
  have he : ((cfg0.win 7).blk t).view.emb (ix2 (0 : Fin 1) n) = (ix2 (0 : Fin 1) n : S1x64.Idx) :=
    funext fun a => Fin.ext (by
      match a with
      | ⟨0, _⟩ => show win0_7.index t (0 : Fin 2) * 1 + 1 * 0 = 0; rw [e0]
      | ⟨1, _⟩ => show win0_7.index t (1 : Fin 2) * 64 + 1 * n.val = n.val; rw [e1]; omega)
  unfold iblk
  rw [View.read_apply, he]
  exact (congrFun hv _).trans (shapeCast_a_1a_apply _ _ (0 : Fin 1) n)

/-- Window 9 is the one row the host made of a bias vector: its entry (0, n) is the vector's entry n. -/
theorem bias3_apply (c : Dev nD) (t : Fin cfg0.N) (n : Fin 5) :
    (iblk m c 9 t : Vec Ideal S1x5 .f32) (ix2 (0 : Fin 1) n) = m ((c : Thread nD τ).loc main_arg9) (ix1 n) := by
  obtain ⟨e0, e1⟩ := (idx_whole t).2.2.2.2.2
  have hv : (V m c main_v2 : S1x5.Idx → EReal) = shapeCast S1x5 (m ((c : Thread nD τ).loc main_arg9)) shapeCasts_S5_S1x5 := by
    dsimp only [Gen.V, Gen.hostOps0]; after_results; rfl
  have he : ((cfg0.win 9).blk t).view.emb (ix2 (0 : Fin 1) n) = (ix2 (0 : Fin 1) n : S1x5.Idx) :=
    funext fun a => Fin.ext (by
      match a with
      | ⟨0, _⟩ => show win0_9.index t (0 : Fin 2) * 1 + 1 * 0 = 0; rw [e0]
      | ⟨1, _⟩ => show win0_9.index t (1 : Fin 2) * 5 + 1 * n.val = n.val; rw [e1]; omega)
  unfold iblk
  rw [View.read_apply, he]
  exact (congrFun hv _).trans (shapeCast_a_1a_apply _ _ (0 : Fin 1) n)

/-! ## What a point writes back, and the array after the run -/

/-- The messages of all edges, of the ten argument arrays as launched. -/
abbrev result (c : Dev nD) : S8x200000x5.Idx → EReal :=
  messages (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8)) (m ((c : Thread nD τ).loc main_arg9))

/-- Point t writes back its block of `result`: entry (u, p, o) of the stored block is the message of the edge in row p of
    the point's blocks, which is edge 4000 e + p of batch b for the point's block index (b, e, 0). -/
theorem flushed_eq (c : Dev nD) (t : Fin cfg0.N) :
    (dats m 0 c).flushed 10 t = ((cfg0.win 10).blk t).view.read (Elt Ideal) (result m c) := by
  rw [Value.flushed10]
  unfold out0_10
  rw [View.canon_unit_zero hz3]
  simp only [View.ld_unit_zero (S := S1x4000x64) hz3, View.ld_unit_zero (S := S1x4000x1) hz3,
    View.ld_unit_zero (S := S68x64) hz2, View.ld_unit_zero (S := S1x64) hz2, View.ld_unit_zero (S := S64x64) hz2,
    View.ld_unit_zero (S := S64x5) hz2, View.ld_unit_zero (S := S1x5) hz2]
  funext j
  obtain ⟨u, p, o, rfl⟩ : ∃ (u : Fin 1) (p : Fin 4000) (o : Fin 5), j = ix3 u p o := ⟨j 0, j 1, j 2, eq_ix3 j⟩
  rw [View.read_apply]
  have e2 : win0_10.index t (2 : Fin 3) = 0 := (idx_facts t).2.2.2.2
  have hu : u.val = 0 := by omega
  have i0 : ((((cfg0.win 10).blk t).view.emb (ix3 u p o)) 0).val = win0_10.index t (0 : Fin 3) := by
    show win0_10.index t (0 : Fin 3) * 1 + 1 * u.val = _
    omega
  have i1 : ((((cfg0.win 10).blk t).view.emb (ix3 u p o)) 1).val = win0_10.index t (1 : Fin 3) * 4000 + p.val := by
    show win0_10.index t (1 : Fin 3) * 4000 + 1 * p.val = _
    omega
  have i2 : ((((cfg0.win 10).blk t).view.emb (ix3 u p o)) 2) = o := Fin.ext (by
    show win0_10.index t (2 : Fin 3) * 5 + 1 * o.val = o.val
    rw [e2]; omega)
  refine (Cert.KernelIdeal.Block.stored_apply (iblk m c 0 t) (iblk m c 1 t) (iblk m c 2 t) (iblk m c 3 t) (iblk m c 4 t)
    (iblk m c 5 t) (iblk m c 6 t) (iblk m c 7 t) (iblk m c 8 t) (iblk m c 9 t) u p o).trans ?_
  show _ = messages _ _ _ _ _ _ _ _ _ _ _
  unfold messages
  rw [i2]
  have a0 : (fun k' : Fin 64 => (iblk m c 0 t : Vec Ideal S1x4000x64 .f32) (ix3 (0 : Fin 1) p k'))
      = fun k => (m ((c : Thread nD τ).loc main_arg0)) (ix3 ((((cfg0.win 10).blk t).view.emb (ix3 u p o)) 0) ((((cfg0.win 10).blk t).view.emb (ix3 u p o)) 1) k) :=
    funext fun k => hidden_apply m c t p k _ i0 i1 rfl
  have a1 : (iblk m c 1 t : Vec Ideal S1x4000x1 .f32) (ix3 (0 : Fin 1) p (0 : Fin 1))
      = (m ((c : Thread nD τ).loc main_arg2)) (ix3 ((((cfg0.win 10).blk t).view.emb (ix3 u p o)) 0) ((((cfg0.win 10).blk t).view.emb (ix3 u p o)) 1) (0 : Fin 1)) :=
    bin_apply m c t p _ i0 i1 rfl
  have a2 : (iblk m c 2 t : Vec Ideal S1x4000x1 .f32) (ix3 (0 : Fin 1) p (0 : Fin 1))
      = (m ((c : Thread nD τ).loc main_arg3)) (ix3 ((((cfg0.win 10).blk t).view.emb (ix3 u p o)) 0) ((((cfg0.win 10).blk t).view.emb (ix3 u p o)) 1) (0 : Fin 1)) :=
    bout_apply m c t p _ i0 i1 rfl
  have a3 : (iblk m c 3 t : Vec Ideal S1x4000x1 .f32) (ix3 (0 : Fin 1) p (0 : Fin 1))
      = (m ((c : Thread nD τ).loc main_arg1)) (ix3 ((((cfg0.win 10).blk t).view.emb (ix3 u p o)) 0) ((((cfg0.win 10).blk t).view.emb (ix3 u p o)) 1) (0 : Fin 1)) :=
    coupling_apply m c t p _ i0 i1 rfl
  have a4 : (fun (k : Fin 68) (n : Fin 64) => (iblk m c 4 t : Vec Ideal S68x64 .f32) (ix2 k n)) = fun k n => (m ((c : Thread nD τ).loc main_arg4)) (ix2 k n) :=
    funext fun k => funext fun n => weight1_apply m c t k n
  have a5 : (fun n : Fin 64 => (iblk m c 5 t : Vec Ideal S1x64 .f32) (ix2 (0 : Fin 1) n)) = fun n => (m ((c : Thread nD τ).loc main_arg5)) (ix1 n) :=
    funext fun n => bias1_apply m c t n
  have a6 : (fun (k : Fin 64) (n : Fin 64) => (iblk m c 6 t : Vec Ideal S64x64 .f32) (ix2 k n)) = fun k n => (m ((c : Thread nD τ).loc main_arg6)) (ix2 k n) :=
    funext fun k => funext fun n => weight2_apply m c t k n
  have a7 : (fun n : Fin 64 => (iblk m c 7 t : Vec Ideal S1x64 .f32) (ix2 (0 : Fin 1) n)) = fun n => (m ((c : Thread nD τ).loc main_arg7)) (ix1 n) :=
    funext fun n => bias2_apply m c t n
  have a8 : (fun (k : Fin 64) (n : Fin 5) => (iblk m c 8 t : Vec Ideal S64x5 .f32) (ix2 k n)) = fun k n => (m ((c : Thread nD τ).loc main_arg8)) (ix2 k n) :=
    funext fun k => funext fun n => weight3_apply m c t k n
  have a9 : (fun n : Fin 5 => (iblk m c 9 t : Vec Ideal S1x5 .f32) (ix2 (0 : Fin 1) n)) = fun n => (m ((c : Thread nD τ).loc main_arg9)) (ix1 n) :=
    funext fun n => bias3_apply m c t n
  rw [a0, a1, a2, a3, a4, a5, a6, a7, a8, a9]

/-- An index of the result array is in point t's block iff each coordinate is in the block's range on its axis. -/
theorem mem_blk (t : Fin cfg0.N) (i : S8x200000x5.Idx) :
    i ∈ ((cfg0.win 10).blk t).view.set ↔ ∀ a : Fin 3, win0_10.index t a * S1x4000x5.size a ≤ (i a).val ∧ (i a).val < win0_10.index t a * S1x4000x5.size a + S1x4000x5.size a := by
  show i ∈ ((View.whole main_v3).slice (win0_10.rect t)).set ↔ _
  rw [View.set_slice_whole, Rect.mem_set_unit]
  exact Iff.rfl

/-- Every edge is in some point's block: edge e' of batch b in that of the point numbered 50 b + e' / 4000. -/
theorem covered (i : S8x200000x5.Idx) :
    ∃ t : Fin cfg0.N, (cfg0.win 10).flush t = true ∧ i ∈ ((cfg0.win 10).blk t).view.set := by
  have hb : (i 0).val < 8 := (i 0).isLt
  have he : (i 1).val < 200000 := (i 1).isLt
  have ho : (i 2).val < 5 := (i 2).isLt
  have hN : cfg0.N = 400 := N_0
  let t : Fin cfg0.N := ⟨(i 0).val * 50 + (i 1).val / 4000, by rw [hN]; omega⟩
  have ht : t.val = (i 0).val * 50 + (i 1).val / 4000 := rfl
  obtain ⟨q0, q1⟩ := index10_val t
  have q2 : win0_10.index t (2 : Fin 3) = 0 := (idx_facts t).2.2.2.2
  refine ⟨t, flush0_10 t, ?_⟩
  rw [mem_blk]
  intro a
  match a with
  | ⟨0, _⟩ =>
    show win0_10.index t (0 : Fin 3) * 1 ≤ (i 0).val ∧ (i 0).val < win0_10.index t (0 : Fin 3) * 1 + 1
    rw [q0, ht]; omega
  | ⟨1, _⟩ =>
    show win0_10.index t (1 : Fin 3) * 4000 ≤ (i 1).val ∧ (i 1).val < win0_10.index t (1 : Fin 3) * 4000 + 4000
    rw [q1, ht]; omega
  | ⟨2, _⟩ =>
    show win0_10.index t (2 : Fin 3) * 5 ≤ (i 2).val ∧ (i 2).val < win0_10.index t (2 : Fin 3) * 5 + 5
    rw [q2]; omega

/-- The result array after the run holds the messages of all edges. -/
theorem final (c : Dev nD) : (dats m 0 c).arrAt 10 cfg0.N = result m c :=
  (dats m 0 c).arrAt_eq_of_cover 10 (result m c) (fun t _ => flushed_eq m c t) covered

/-- The kernel's run, read: the result array at `result`, every argument as launched. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Value.run_blocks m ρ)

end Cert.KernelIdeal.Edges

end
-- ==== Proof.lean ====
/-
  An edge-message network: a tiled kernel against whole-array array code, equal on the extended reals.

  Both programs take eight batches of 200000 edges, each edge with 64 hidden features and three scalars (J, b_in,
  b_out), and compute per edge a three-layer perceptron of the 68 numbers (hidden, b_in, b_out, J, -J): two layers
  of 64 units clipped at zero and 5 linear outputs.  The reference does it on whole arrays: negate, join along the
  feature axis, contract with each weight, add each bias spread over batch and edge, clip.  The kernel does it on
  blocks of 4000 edges of one batch, 8 × 50 grid points, with the weights resident and the biases as rows, writing
  -J as 0 - J and each product as a matrix product into a zero accumulator.

  On the extended reals these are one function.  Every stage of either program, read at one entry, depends on one
  edge only (`HostMlp`, `BlockMlp`), and both reduce to the same expression `EdgeMlp.mlp` of that edge's numbers: the
  sums run over the same index sets with the same terms, 0 - x is -x for every extended real, and the clipping
  compares with the same zero.  No distributive or cancelling step is used, so the finiteness of the inputs is
  never called on.  The kernel's blocks cover the result array (`EdgeBlocks`), so after its run the array holds the
  messages of all edges, which is what the reference's run leaves in its result.

  The three frame claims are the generated frame runs (the reference's is its generated run with the result
  dropped); the kernel's idealization rewrote nothing, so that claim is trivial.
-/
import proofs.«133533_j12395275616824_2_alg».proof.Defs
import proofs.«133533_j12395275616824_2_alg».proof.Proof.Gen.Kernel
import proofs.«133533_j12395275616824_2_alg».proof.Proof.Gen.Kernel.Skeleton
import proofs.«133533_j12395275616824_2_alg».proof.Proof.Gen.Kernel.Launch
import proofs.«133533_j12395275616824_2_alg».proof.Proof.Gen.Kernel.Points
import proofs.«133533_j12395275616824_2_alg».proof.Proof.Gen.Kernel.Frame
import proofs.«133533_j12395275616824_2_alg».proof.Proof.Gen.KernelIdeal
import proofs.«133533_j12395275616824_2_alg».proof.Proof.Gen.KernelIdeal.Skeleton
import proofs.«133533_j12395275616824_2_alg».proof.Proof.Gen.KernelIdeal.Launch
import proofs.«133533_j12395275616824_2_alg».proof.Proof.Gen.KernelIdeal.Points
import proofs.«133533_j12395275616824_2_alg».proof.Proof.Gen.KernelIdeal.Frame
import proofs.«133533_j12395275616824_2_alg».proof.Proof.Gen.ReferenceIdeal
import proofs.«133533_j12395275616824_2_alg».proof.Proof.Gen.Pre_finite_inputs
import proofs.«133533_j12395275616824_2_alg».proof.Proof.Gen.KernelIdeal.Value
import proofs.«133533_j12395275616824_2_alg».proof.Proof.Gen.ReferenceIdeal.Run
import proofs.«133533_j12395275616824_2_alg».proof.Proof.Gen.ReferenceIdeal.Read
import proofs.«133533_j12395275616824_2_alg».proof.Proof.HostMlp
import proofs.«133533_j12395275616824_2_alg».proof.Proof.EdgeBlocks
import Idealize.ShloMosaic.Adequacy
import Idealize.ShloMosaic.Init

noncomputable section

namespace Cert.Proof

open Idealize.ShloMosaic Idealize.SL.Sem

/-- The kernel as printed runs and leaves its arguments alone: its generated frame run. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's frame is its generated run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories that agree on the ten arguments, the kernel's result array ends at the messages of all edges
    (`Edges.run`), and the reference's at its composed term of the same arguments, which is the same array
    (`Host.result_eq`). -/
theorem algebraic : Cert.algebraic_KernelIdeal_ReferenceIdeal := by
  intro m ρ m' ρ' _ hagree
  refine ⟨fun c => Cert.KernelIdeal.Edges.result m c, Cert.KernelIdeal.Edges.run m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5, g6, g7, g8, g9⟩ := hagree c
  rw [g0, g1, g2, g3, g4, g5, g6, g7, g8, g9]
  exact (Cert.ReferenceIdeal.Read.val_main_v15_eq _ _ _ _ _ _ _ _ _ _).trans
    (Cert.ReferenceIdeal.Host.result_eq _ _ _ _ _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
